-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) (main_arg2 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  main_v13
-- ==== Kernel.lean ====
abbrev S2x8x2048x64 : Shape := ⟨4, ![2, 8, 2048, 64]⟩
abbrev S16x2048x64 : Shape := ⟨3, ![16, 2048, 64]⟩
abbrev S1x2048x64 : Shape := ⟨3, ![1, 2048, 64]⟩
abbrev S2048x64 : Shape := ⟨2, ![2048, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S2x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8x2048x64_S16x2048x64 : S2x8x2048x64.ShapeCasts S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  shapeCasts_S2048x64_S1x2048x64 : S2048x64.ShapeCasts S1x2048x64
  shapeCasts_S16x2048x64_S2x8x2048x64 : S16x2048x64.ShapeCasts S2x8x2048x64
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .f32 = 32 ∨ (Rect.block (s := S16x2048x64) S1x2048x64.size (cc0_transform_3 i) (hinb0_3 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.AssocLaw.lean ====
/-
  The one algebraic law that joins the two programs.

  Both compute, for one batch entry and one head, a product of three matrices: with `q` the row of queries at one
  position, `k` the keys and `v` the column of values at one feature, one side sums over the key position `l` the
  products `(∑ d, q d * k l d) * v l`, the other sums over the feature `d` the products `q d * ∑ l, k l d * v l`.
  On the extended reals multiplication does not distribute over a sum that meets `+∞` and `-∞`, so the two are equal
  only where every entry is a real number; there each side is the coercion of the same double sum of real products
  `q d * k l d * v l`, summed in one order or the other.
-/
import Idealize.ShloMosaic.PureOps.Ideal

namespace Cert.Attn

/-- The coercion of the reals into the extended reals sends a finite sum to the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Re-association of the triple product, entry by entry, where every factor is a real number: summing over `l` the
    products of `∑ d, q d * k l d` with `v l` is summing over `d` the products of `q d` with `∑ l, k l d * v l`. -/
theorem sum_mul_assoc_of_real {D L : Type} [Fintype D] [Fintype L] (q : D → EReal) (k : L → D → EReal) (v : L → EReal)
    (hq : ∀ d, ∃ r : ℝ, q d = (r : EReal)) (hk : ∀ l d, ∃ r : ℝ, k l d = (r : EReal))
    (hv : ∀ l, ∃ r : ℝ, v l = (r : EReal)) :
    ∑ l, (∑ d, q d * k l d) * v l = ∑ d, q d * ∑ l, k l d * v l := by
  choose qr hqr using hq
  choose kr hkr using hk
  choose vr hvr using hv
  have hl : ∑ l, (∑ d, q d * k l d) * v l = ((∑ l, (∑ d, qr d * kr l d) * vr l : ℝ) : EReal) := by
    rw [coe_sum]
    refine Finset.sum_congr rfl fun l _ => ?_
    rw [EReal.coe_mul, coe_sum, hvr l]
    refine congrArg (· * (vr l : EReal)) (Finset.sum_congr rfl fun d _ => ?_)
    rw [EReal.coe_mul, hqr d, hkr l d]
  have hr : ∑ d, q d * ∑ l, k l d * v l = ((∑ d, qr d * ∑ l, kr l d * vr l : ℝ) : EReal) := by
    rw [coe_sum]
    refine Finset.sum_congr rfl fun d _ => ?_
    rw [EReal.coe_mul, coe_sum, hqr d]
    refine congrArg ((qr d : EReal) * ·) (Finset.sum_congr rfl fun l _ => ?_)
    rw [EReal.coe_mul, hkr l d, hvr l]
  rw [hl, hr]
  refine congrArg _ ?_
  simp only [Finset.sum_mul, Finset.mul_sum]
  rw [Finset.sum_comm]
  exact Finset.sum_congr rfl fun d _ => Finset.sum_congr rfl fun l _ => by ring

end Cert.Attn
-- ==== Proof.Spec.lean ====
/-
  What both programs compute, as one function of the three argument arrays, index by index.

  The arguments are queries, keys and values, each indexed by (batch entry, head, position, feature) with extents
  (2, 8, 2048, 64). At the result index (b, h, p, e) — position `p`, value feature `e` — the entry is the (p, e) entry
  of the product of three matrices of batch entry `b` and head `h`: queries (2048 × 64), transposed keys (64 × 2048),
  values (2048 × 64). `scoresFirst` multiplies the first two and then the third: it sums over the key position `l` the
  score `∑ d, q (b,h,p,d) * k (b,h,l,d)` times `v (b,h,l,e)`. `keysValuesFirst` multiplies the last two first: it sums
  over the feature `d` the query entry `q (b,h,p,d)` times `∑ l, k (b,h,l,d) * v (b,h,l,e)`. They agree where every entry
  of the three arrays is a real number (`scoresFirst_eq_keysValuesFirst`): the triple product re-associated.
-/
import Idealize.ShloMosaic.PureOps.Ideal
import Idealize.ShloMosaic.Lib.ValueIdx
import proofs.«127475_j56788057587918_2_alg».proof.Proof.AssocLaw

noncomputable section

namespace Cert.Attn

open Idealize.ShloMosaic Idealize.ShloMosaic.ValueIdx

/-- An argument or result array: (batch entry, head, position, feature). -/
abbrev Arr : Type := FVec Ideal (⟨4, ![2, 8, 2048, 64]⟩ : Shape) .f32

/-- The scores first: over the key position `l`, the score of query position `i 2` against key `l` times the value of
    `l` at feature `i 3`. -/
def scoresFirst (q k v : Arr) : Arr := fun i =>
  ∑ l : Fin 2048, (∑ d : Fin 64, q (ix4 (i 0) (i 1) (i 2) d) * k (ix4 (i 0) (i 1) l d)) * v (ix4 (i 0) (i 1) l (i 3))

/-- The keys against the values first: over the feature `d`, the query entry at `d` times the (d, i 3) entry of the
    64 × 64 product of the transposed keys with the values. -/
def keysValuesFirst (q k v : Arr) : Arr := fun i =>
  ∑ d : Fin 64, q (ix4 (i 0) (i 1) (i 2) d) * ∑ l : Fin 2048, k (ix4 (i 0) (i 1) l d) * v (ix4 (i 0) (i 1) l (i 3))

/-- An array all of whose entries are real numbers. -/
def AllReal (x : Arr) : Prop := ∀ i, ∃ r : ℝ, x i = (r : EReal)

/-- On arrays of real numbers the two orders of multiplication give the same array. -/
theorem scoresFirst_eq_keysValuesFirst (q k v : Arr) (hq : AllReal q) (hk : AllReal k) (hv : AllReal v) :
    scoresFirst q k v = keysValuesFirst q k v :=
  funext fun i =>
    sum_mul_assoc_of_real (fun d : Fin 64 => q (ix4 (i 0) (i 1) (i 2) d)) (fun (l : Fin 2048) (d : Fin 64) => k (ix4 (i 0) (i 1) l d))
      (fun l : Fin 2048 => v (ix4 (i 0) (i 1) l (i 3))) (fun _ => hq _) (fun _ _ => hk _) (fun _ => hv _)

end Cert.Attn

end
-- ==== Proof.RefValue.lean ====
/-
  The reference computes `scoresFirst`.

  Its two operations are contractions with the batch entry and the head carried along: the first contracts the feature axis
  of the queries against the feature axis of the keys, giving at (b, h, p, l) the score `∑ d, q (b,h,p,d) * k (b,h,l,d)`; the
  second contracts the key-position axis of the scores against the position axis of the values, giving at (b, h, p, e)
  `∑ l, score (b,h,p,l) * v (b,h,l,e)`. Read at an index, one operation after the other, that is `scoresFirst` once the
  operand indices are written by their coordinates.
-/
import proofs.«127475_j56788057587918_2_alg».proof.Proof.Gen.ReferenceIdeal.Read
import proofs.«127475_j56788057587918_2_alg».proof.Proof.Spec

noncomputable section

namespace Cert.Attn.Reference

open Cert.ReferenceIdeal Cert.ReferenceIdeal.Read Idealize.ShloMosaic Idealize.ShloMosaic.ValueIdx Cert.Attn

/-- The query entry the score at (b, h, p, l) multiplies at feature `d` sits at (b, h, p, d), -/
theorem query_idx (i : S2x8x2048x64.Idx) (l : Fin 2048) (d : Fin 64) :
    lidx_main_v0 (lidx_main_v1 i l) d = ix4 (i 0) (i 1) (i 2) d :=
  funext fun a => Fin.ext (by match a with | ⟨0, _⟩ => rfl | ⟨1, _⟩ => rfl | ⟨2, _⟩ => rfl | ⟨3, _⟩ => rfl)

/-- the key entry at (b, h, l, d), -/
theorem key_idx (i : S2x8x2048x64.Idx) (l : Fin 2048) (d : Fin 64) :
    ridx_main_v0 (lidx_main_v1 i l) d = ix4 (i 0) (i 1) l d :=
  funext fun a => Fin.ext (by match a with | ⟨0, _⟩ => rfl | ⟨1, _⟩ => rfl | ⟨2, _⟩ => rfl | ⟨3, _⟩ => rfl)

/-- and the value entry the score is then multiplied with at (b, h, l, e). -/
theorem value_idx (i : S2x8x2048x64.Idx) (l : Fin 2048) :
    ridx_main_v1 i l = ix4 (i 0) (i 1) l (i 3) :=
  funext fun a => Fin.ext (by match a with | ⟨0, _⟩ => rfl | ⟨1, _⟩ => rfl | ⟨2, _⟩ => rfl | ⟨3, _⟩ => rfl)

/-- The reference's result, as a function of its three arguments, is `scoresFirst` of them. -/
theorem val_eq_scoresFirst (q k v : Arr) : val_main_v1 (F := Ideal) q k v = scoresFirst q k v := by
  funext i
  rw [val_main_v1_apply]
  show _ = ∑ l : Fin 2048, (∑ d : Fin 64, q (ix4 (i 0) (i 1) (i 2) d) * k (ix4 (i 0) (i 1) l d)) * v (ix4 (i 0) (i 1) l (i 3))
  refine Finset.sum_congr rfl fun l _ => ?_
  rw [val_main_v0_apply, value_idx]
  simp only [query_idx, key_idx]
  rfl

end Cert.Attn.Reference

end
-- ==== Proof.Finite.lean ====
/-
  The precondition says every entry of the three arguments is a real number.

  It is stated as a computed flag: for each argument, whether the absolute value of every entry is below the float
  `+∞`, the three answers combined by `and`. On the extended reals the absolute value is `max x (-x)`, the word
  `0x7F800000` denotes `⊤`, and `max x (-x) < ⊤` fails exactly at `x = ⊤` and `x = ⊥`: what is left is a real number.
-/
import proofs.«127475_j56788057587918_2_alg».proof.Pre_finite_inputs
import proofs.«127475_j56788057587918_2_alg».proof.Proof.Gen.Pre_finite_inputs
import proofs.«127475_j56788057587918_2_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.Attn.Finite

open Cert.Pre_finite_inputs Idealize.ShloMosaic Cert.Attn

/-- The result of an all-axes reduction has one index. -/
instance : Subsingleton S_.Idx := ⟨fun _ _ => funext fun d => d.elim0⟩

/-- The f32 word with exponent all ones and significand zero denotes `⊤`. -/
theorem inf_word : Ideal.ofBits .f32 0x7F800000#32 = (⊤ : EReal) := by simp [Ideal.ofBits, Ideal.ieee]

/-- An extended real whose absolute value compares below the float `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- One argument's flag: if the `and` over all entries of "the absolute value is below `+∞`" is one, every entry is
    a real number. -/
theorem allReal_of_flag (x : Arr)
    (h : Host.reduce IntOp.andi (cmpf .olt (Host.absf x) (broadcastInDim S2x8x2048x64 ![] Facts.bcast_S_S2x8x2048x64 (constant (F := Ideal) S_ .f32 0x7F800000#32)))
        (constantI S_ 1 1#1) Facts.reducesTo_S2x8x2048x64_S_d0_1_2_3 Facts.h_S_ ValueIdx.ix0 = 1#1) : AllReal x := fun i =>
  real_of_abs_lt_inf (x i) (Host.reduce_andi_all _ _ _ _ ValueIdx.ix0 h i)

/-- The precondition of the three arguments gives that all three hold real numbers only. -/
theorem allReal_of_pre (q k v : Arr) (h : Cert.Pre_finite_inputs.fn (F := Ideal) q k v = fun _ => 1#1) :
    AllReal q ∧ AllReal k ∧ AllReal v := by
  have h0 := congrFun h ValueIdx.ix0
  dsimp only [fn] at h0
  obtain ⟨hqk, hv⟩ := IntOp.andi_eq_one.mp h0
  obtain ⟨hq, hk⟩ := IntOp.andi_eq_one.mp hqk
  exact ⟨allReal_of_flag q hq, allReal_of_flag k hk, allReal_of_flag v hv⟩

end Cert.Attn.Finite

end
-- ==== Proof.Body.lean ====
/-
  The kernel body's one stored value, read at an index.

  At one grid point the body holds the query, key and value blocks of one (batch entry, head) pair, each 2048 positions
  by 64 features behind a leading axis of extent one. It forms the 64 × 64 matrix of the transposed keys times the values —
  entry (d, e) is `∑ l, key (l, d) * value (l, e)`, the contraction running over the 2048 positions — and then multiplies
  the queries by it: entry (p, e) of what it stores is `∑ d, query (p, d) * (∑ l, key (l, d) * value (l, e))`. Both
  products start from a zero accumulator, and the changes of float format in between are the identity on the extended
  reals, so nothing else is left at an index.
-/
import proofs.«127475_j56788057587918_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Body

open Cert.KernelIdeal Cert.KernelIdeal.Gen Idealize.ShloMosaic Idealize.ShloMosaic.ValueIdx

/-! ## The keys against the values: contraction over the positions -/

theorem kv_lhs_0 (j : S64x64.Idx) (c : dot_S2048x64_S2048x64_S64x64_0_0_1_1_n_n.contr.Idx) :
    (dot_S2048x64_S2048x64_S64x64_0_0_1_1_n_n.lhsIdx j c 0).val = (c ⟨0, by decide⟩).val :=
  dot_S2048x64_S2048x64_S64x64_0_0_1_1_n_n.lhsIdx_val_of_single rfl j c
theorem kv_lhs_1 (j : S64x64.Idx) (c : dot_S2048x64_S2048x64_S64x64_0_0_1_1_n_n.contr.Idx) :
    (dot_S2048x64_S2048x64_S64x64_0_0_1_1_n_n.lhsIdx j c 1).val = (j 0).val := by
  unfold DotDims.lhsIdx
  rw [dif_neg (show ¬(1 : Fin S2048x64.rank) ∈ dot_S2048x64_S2048x64_S64x64_0_0_1_1_n_n.lhsBatch by decide), dif_pos (show (1 : Fin S2048x64.rank) ∈ dot_S2048x64_S2048x64_S64x64_0_0_1_1_n_n.lhsNonContracting by decide)]
  rfl
theorem kv_rhs_0 (j : S64x64.Idx) (c : dot_S2048x64_S2048x64_S64x64_0_0_1_1_n_n.contr.Idx) :
    (dot_S2048x64_S2048x64_S64x64_0_0_1_1_n_n.rhsIdx j c 0).val = (c ⟨0, by decide⟩).val :=
  dot_S2048x64_S2048x64_S64x64_0_0_1_1_n_n.rhsIdx_val_of_single rfl j c
theorem kv_rhs_1 (j : S64x64.Idx) (c : dot_S2048x64_S2048x64_S64x64_0_0_1_1_n_n.contr.Idx) :
    (dot_S2048x64_S2048x64_S64x64_0_0_1_1_n_n.rhsIdx j c 1).val = (j 1).val := by
  unfold DotDims.rhsIdx
  rw [dif_neg (show ¬(1 : Fin S2048x64.rank) ∈ dot_S2048x64_S2048x64_S64x64_0_0_1_1_n_n.rhsBatch by decide), dif_pos (show (1 : Fin S2048x64.rank) ∈ dot_S2048x64_S2048x64_S64x64_0_0_1_1_n_n.rhsNonContracting by decide)]
  rfl

/-- The product of the transposed first operand with the second, from zero, at (d, e): the sum over the positions `l` of
    the first at (l, d) times the second at (l, e). -/
theorem keysValues_apply {φ₁ φ₂ : FTy} (a : FVec Ideal S2048x64 φ₁) (b : FVec Ideal S2048x64 φ₂) (d e : Fin 64) :
    matmul dot_S2048x64_S2048x64_S64x64_0_0_1_1_n_n none a b (constant (F := Ideal) S64x64 .f32 0x00000000#32) (ix2 d e)
      = ∑ l : Fin 2048, a (ix2 l d) * b (ix2 l e) := by
  refine (Ideal.matmul_constant_zero_apply dot_S2048x64_S2048x64_S64x64_0_0_1_1_n_n none a b (ix2 d e)).trans ?_
  rw [← Equiv.sum_comp (ValueIdx.contrEquiv1 dot_S2048x64_S2048x64_S64x64_0_0_1_1_n_n 2048 rfl rfl).symm]
  refine Finset.sum_congr rfl fun l _ => ?_
  have hl := ValueIdx.contrEquiv1_symm_val dot_S2048x64_S2048x64_S64x64_0_0_1_1_n_n 2048 rfl rfl l
  have el : dot_S2048x64_S2048x64_S64x64_0_0_1_1_n_n.lhsIdx (ix2 d e) ((ValueIdx.contrEquiv1 dot_S2048x64_S2048x64_S64x64_0_0_1_1_n_n 2048 rfl rfl).symm l) = ix2 l d := funext fun x => Fin.ext (by
    match x with
    | ⟨0, _⟩ => exact (kv_lhs_0 _ _).trans hl
    | ⟨1, _⟩ => exact kv_lhs_1 _ _)
  have er : dot_S2048x64_S2048x64_S64x64_0_0_1_1_n_n.rhsIdx (ix2 d e) ((ValueIdx.contrEquiv1 dot_S2048x64_S2048x64_S64x64_0_0_1_1_n_n 2048 rfl rfl).symm l) = ix2 l e := funext fun x => Fin.ext (by
    match x with
    | ⟨0, _⟩ => exact (kv_rhs_0 _ _).trans hl
    | ⟨1, _⟩ => exact kv_rhs_1 _ _)
  rw [el, er]

/-! ## The queries against that matrix: contraction over the features -/

theorem qm_lhs_0 (j : S2048x64.Idx) (c : dot_S2048x64_S64x64_S2048x64_1_0_0_1_n_n.contr.Idx) :
    (dot_S2048x64_S64x64_S2048x64_1_0_0_1_n_n.lhsIdx j c 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem qm_lhs_1 (j : S2048x64.Idx) (c : dot_S2048x64_S64x64_S2048x64_1_0_0_1_n_n.contr.Idx) :
    (dot_S2048x64_S64x64_S2048x64_1_0_0_1_n_n.lhsIdx j c 1).val = (c ⟨0, by decide⟩).val :=
  dot_S2048x64_S64x64_S2048x64_1_0_0_1_n_n.lhsIdx_val_of_single rfl j c
theorem qm_rhs_0 (j : S2048x64.Idx) (c : dot_S2048x64_S64x64_S2048x64_1_0_0_1_n_n.contr.Idx) :
    (dot_S2048x64_S64x64_S2048x64_1_0_0_1_n_n.rhsIdx j c 0).val = (c ⟨0, by decide⟩).val :=
  dot_S2048x64_S64x64_S2048x64_1_0_0_1_n_n.rhsIdx_val_of_single rfl j c
theorem qm_rhs_1 (j : S2048x64.Idx) (c : dot_S2048x64_S64x64_S2048x64_1_0_0_1_n_n.contr.Idx) :
    (dot_S2048x64_S64x64_S2048x64_1_0_0_1_n_n.rhsIdx j c 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The product of the first operand with a 64 × 64 matrix, from zero, at (p, e): the sum over the features `d` of the
    first at (p, d) times the matrix at (d, e). -/
theorem queriesMatrix_apply {φ₁ φ₂ : FTy} (a : FVec Ideal S2048x64 φ₁) (b : FVec Ideal S64x64 φ₂) (p : Fin 2048) (e : Fin 64) :
    matmul dot_S2048x64_S64x64_S2048x64_1_0_0_1_n_n none a b (constant (F := Ideal) S2048x64 .f32 0x00000000#32) (ix2 p e)
      = ∑ d : Fin 64, a (ix2 p d) * b (ix2 d e) := by
  refine (Ideal.matmul_constant_zero_apply dot_S2048x64_S64x64_S2048x64_1_0_0_1_n_n none a b (ix2 p e)).trans ?_
  rw [← Equiv.sum_comp (ValueIdx.contrEquiv1 dot_S2048x64_S64x64_S2048x64_1_0_0_1_n_n 64 rfl rfl).symm]
  refine Finset.sum_congr rfl fun d _ => ?_
  have hd := ValueIdx.contrEquiv1_symm_val dot_S2048x64_S64x64_S2048x64_1_0_0_1_n_n 64 rfl rfl d
  have el : dot_S2048x64_S64x64_S2048x64_1_0_0_1_n_n.lhsIdx (ix2 p e) ((ValueIdx.contrEquiv1 dot_S2048x64_S64x64_S2048x64_1_0_0_1_n_n 64 rfl rfl).symm d) = ix2 p d := funext fun x => Fin.ext (by
    match x with
    | ⟨0, _⟩ => exact qm_lhs_0 _ _
    | ⟨1, _⟩ => exact (qm_lhs_1 _ _).trans hd)
  have er : dot_S2048x64_S64x64_S2048x64_1_0_0_1_n_n.rhsIdx (ix2 p e) ((ValueIdx.contrEquiv1 dot_S2048x64_S64x64_S2048x64_1_0_0_1_n_n 64 rfl rfl).symm d) = ix2 d e := funext fun x => Fin.ext (by
    match x with
    | ⟨0, _⟩ => exact (qm_rhs_0 _ _).trans hd
    | ⟨1, _⟩ => exact qm_rhs_1 _ _)
  rw [el, er]

/-! ## The stored value -/

/-- What the body stores, at position `p` and feature `e` of its block: the query row `p` against column `e` of the
    transposed keys times the values. -/
theorem stored_apply (x0 x1 x2 : Vec Ideal S1x2048x64 .f32) (u : Fin 1) (p : Fin 2048) (e : Fin 64) :
    k0_pay1 (F := Ideal) x0 x1 x2 (ix3 u p e)
      = ∑ d : Fin 64, x0 (ix3 (0 : Fin 1) p d) * ∑ l : Fin 2048, x1 (ix3 (0 : Fin 1) l d) * x2 (ix3 (0 : Fin 1) l e) := by
  unfold k0_pay1
  refine (shapeCast_ab_1ab_apply _ _ u p e).trans ?_
  refine (queriesMatrix_apply _ _ p e).trans ?_
  refine Finset.sum_congr rfl fun d _ => ?_
  refine congrArg₂ (· * ·) (shapeCast_1ab_ab_apply x0 _ p d) ?_
  refine (keysValues_apply _ _ d e).trans ?_
  refine Finset.sum_congr rfl fun l _ => ?_
  exact congrArg₂ (· * ·) (shapeCast_1ab_ab_apply x1 _ l d) (shapeCast_1ab_ab_apply x2 _ l e)

end Cert.Attn.Body

end
-- ==== Proof.Blocks.lean ====
/-
  From what one grid point writes back to the whole output array.

  The grid has one point per (batch entry, head) pair, sixteen in all; the queries, keys, values and the output are
  arrays of extents (16, 2048, 64), and at point `t` each window's block is the slab of its array at first coordinate `t`,
  all 2048 positions and all 64 features of it. So what point `t` writes back — the body's stored value of the three input
  blocks — is slab `t` of ONE function of the three arrays, `perHead`: at (g, p, e) the query row (g, p) against column
  `e` of the transposed keys of `g` times the values of `g`. The sixteen slabs cover the output array, so after the last
  write-back the array is `perHead` of the arrays the region was entered with.
-/
import proofs.«127475_j56788057587918_2_alg».proof.Proof.Gen.KernelIdeal.Frame
import proofs.«127475_j56788057587918_2_alg».proof.Proof.Body
import Idealize.ShloMosaic.Lib.Pipeline.Value

noncomputable section

namespace Cert.Attn.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- One (batch entry, head) pair `g` at a time: at (g, p, e), over the feature `d`, the query entry (g, p, d) times the
    (d, e) entry of the transposed keys of `g` times the values of `g`. -/
def perHead (a0 a1 a2 : FVec Ideal S16x2048x64 .f32) : FVec Ideal S16x2048x64 .f32 := fun i =>
  ∑ d : Fin 64, a0 (ix3 (i 0) (i 1) d) * ∑ l : Fin 2048, a1 (ix3 (i 0) l d) * a2 (ix3 (i 0) l (i 2))

theorem zero_offsets : (![0, 0, 0] : Fin 3 → Nat) = fun _ => 0 := funext fun a => by fin_cases a <;> rfl

/-- The four index maps, decided over the sixteen points: every window's block index is (the output's first block index,
    0, 0). -/
theorem same_slab : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every slab of the output is some point's block. -/
theorem slab_onto : ∀ g : Fin 16, ∃ t : Fin cfg0.N, win0_3.index t = ![g.val, 0, 0] :=
  (by decide +kernel : ∀ g : Fin 16, ∃ t : Fin grid0.N, win0_3.index t = ![g.val, 0, 0])

/-- The array index under a coordinate of the output's block at point `t`. -/
abbrev outIdx (t : Fin cfg0.N) (j : S1x2048x64.Idx) : S16x2048x64.Idx := ((cfg0.win 3).blk t).view.emb j

/-- Its coordinates: the slab of the point, then the position and the feature inside the block. -/
theorem outIdx_val (t : Fin cfg0.N) (u : Fin 1) (p : Fin 2048) (e : Fin 64) :
    (outIdx t (ix3 u p e) 0).val = win0_3.index t (0 : Fin 3) ∧ (outIdx t (ix3 u p e) 1).val = p.val
      ∧ (outIdx t (ix3 u p e) 2).val = e.val := by
  obtain ⟨-, -, -, -, -, -, -, -, -, e31, e32⟩ := same_slab t
  have hu : u.val = 0 := by omega
  refine ⟨?_, ?_, ?_⟩
  · show win0_3.index t (0 : Fin 3) * 1 + 1 * u.val = _; omega
  · show win0_3.index t (1 : Fin 3) * 2048 + 1 * p.val = _; omega
  · show win0_3.index t (2 : Fin 3) * 64 + 1 * e.val = _; omega

/-- WHAT POINT `t` WRITES BACK is slab `t` of `perHead` of the three arrays as the region finds them. -/
theorem flushed_eq (c : Dev nD) (t : Fin cfg0.N) :
    (dats m 0 c).flushed 3 t
      = ((cfg0.win 3).blk t).view.read (Elt Ideal) (perHead (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x2048x64) zero_offsets]
  obtain ⟨e00, e01, e02, e10, e11, e12, e20, e21, e22, -, -⟩ := same_slab t
  refine funext fun (j : S1x2048x64.Idx) => ?_
  obtain ⟨u, p, e, rfl⟩ : ∃ (u : Fin 1) (p : Fin 2048) (e : Fin 64), j = ix3 u p e := ⟨j 0, j 1, j 2, eq_ix3 j⟩
  obtain ⟨o0, o1, o2⟩ := outIdx_val t u p e
  show k0_pay1 (F := Ideal) (iblk m c 0 t) (iblk m c 1 t) (iblk m c 2 t) (ix3 u p e)
      = perHead (V m c main_v0) (V m c main_v1) (V m c main_v2) (outIdx t (ix3 u p e))
  refine (Body.stored_apply (iblk m c 0 t) (iblk m c 1 t) (iblk m c 2 t) u p e).trans ?_
  have z1 : ((0 : Fin 1) : ℕ) = 0 := rfl
  -- each input block, read at a block coordinate, is its array read in the same slab
  have hq : ∀ d : Fin 64, iblk m c 0 t (ix3 (0 : Fin 1) p d)
      = (V m c main_v0 : FVec Ideal S16x2048x64 .f32) (ix3 (outIdx t (ix3 u p e) 0) (outIdx t (ix3 u p e) 1) d) := fun d => by
    show (V m c main_v0 : FVec Ideal S16x2048x64 .f32) (((cfg0.win 0).blk t).view.emb (ix3 (0 : Fin 1) p d)) = _
    refine congrArg (V m c main_v0 : FVec Ideal S16x2048x64 .f32) (funext fun a => Fin.ext ?_)
    match a with
    | ⟨0, _⟩ => show win0_0.index t (0 : Fin 3) * 1 + 1 * ((0 : Fin 1) : ℕ) = (outIdx t (ix3 u p e) 0).val; omega
    | ⟨1, _⟩ => show win0_0.index t (1 : Fin 3) * 2048 + 1 * p.val = (outIdx t (ix3 u p e) 1).val; omega
    | ⟨2, _⟩ => show win0_0.index t (2 : Fin 3) * 64 + 1 * d.val = d.val; omega
  have hk : ∀ (l : Fin 2048) (d : Fin 64), iblk m c 1 t (ix3 (0 : Fin 1) l d)
      = (V m c main_v1 : FVec Ideal S16x2048x64 .f32) (ix3 (outIdx t (ix3 u p e) 0) l d) := fun l d => by
    show (V m c main_v1 : FVec Ideal S16x2048x64 .f32) (((cfg0.win 1).blk t).view.emb (ix3 (0 : Fin 1) l d)) = _
    refine congrArg (V m c main_v1 : FVec Ideal S16x2048x64 .f32) (funext fun a => Fin.ext ?_)
    match a with
    | ⟨0, _⟩ => show win0_1.index t (0 : Fin 3) * 1 + 1 * ((0 : Fin 1) : ℕ) = (outIdx t (ix3 u p e) 0).val; omega
    | ⟨1, _⟩ => show win0_1.index t (1 : Fin 3) * 2048 + 1 * l.val = l.val; omega
    | ⟨2, _⟩ => show win0_1.index t (2 : Fin 3) * 64 + 1 * d.val = d.val; omega
  have hv : ∀ l : Fin 2048, iblk m c 2 t (ix3 (0 : Fin 1) l e)
      = (V m c main_v2 : FVec Ideal S16x2048x64 .f32) (ix3 (outIdx t (ix3 u p e) 0) l (outIdx t (ix3 u p e) 2)) := fun l => by
    show (V m c main_v2 : FVec Ideal S16x2048x64 .f32) (((cfg0.win 2).blk t).view.emb (ix3 (0 : Fin 1) l e)) = _
    refine congrArg (V m c main_v2 : FVec Ideal S16x2048x64 .f32) (funext fun a => Fin.ext ?_)
    match a with
    | ⟨0, _⟩ => show win0_2.index t (0 : Fin 3) * 1 + 1 * ((0 : Fin 1) : ℕ) = (outIdx t (ix3 u p e) 0).val; omega
    | ⟨1, _⟩ => show win0_2.index t (1 : Fin 3) * 2048 + 1 * l.val = l.val; omega
    | ⟨2, _⟩ => show win0_2.index t (2 : Fin 3) * 64 + 1 * e.val = (outIdx t (ix3 u p e) 2).val; omega
  unfold perHead
  refine Finset.sum_congr rfl fun d _ => ?_
  refine congrArg₂ (· * ·) (hq d) (Finset.sum_congr rfl fun l _ => ?_)
  exact congrArg₂ (· * ·) (hk l d) (hv l)

/-- An index of the output array is in point `t`'s block iff each coordinate is in the block's range on its axis. -/
theorem mem_slab (t : Fin cfg0.N) (i : S16x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- Every index of the output array is in the block of the point of its slab, which writes back. -/
theorem covered (i : S16x2048x64.Idx) :
    ∃ t : Fin cfg0.N, (cfg0.win 3).flush t = true ∧ i ∈ ((cfg0.win 3).blk t).view.set := by
  obtain ⟨t, ht⟩ := slab_onto ⟨(i 0).val, (i 0).isLt⟩
  have q0 : win0_3.index t (0 : Fin 3) = (i 0).val := congrFun ht 0
  have q1 : win0_3.index t (1 : Fin 3) = 0 := congrFun ht 1
  have q2 : win0_3.index t (2 : Fin 3) = 0 := congrFun ht 2
  have h1 : (i 1).val < 2048 := (i 1).isLt
  have h2 : (i 2).val < 64 := (i 2).isLt
  refine ⟨t, flush0_3 t, ?_⟩
  rw [mem_slab]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- THE OUTPUT ARRAY after the last write-back: `perHead` of the three arrays as the region finds them. -/
theorem final (c : Dev nD) :
    (dats m 0 c).arrAt 3 cfg0.N = perHead (V m c main_v0) (V m c main_v1) (V m c main_v2) :=
  (dats m 0 c).arrAt_eq_of_cover 3 _ (fun t _ => flushed_eq m c t) covered

end Cert.Attn.Blocks

end
-- ==== Proof.Relaid.lean ====
/-
  The reshapes around the region, read at an index.

  Before the region each argument, indexed (batch entry, head, position, feature), is re-laid with the first two axes
  merged: the pair (b, h) becomes `g = 8 * b + h`, one of sixteen. After it the output is re-laid back. Both keep the
  row-major position, so the merged array at (8 * b + h, p, d) is the argument at (b, h, p, d). Read through both, the
  per-pair function of the merged arrays is `keysValuesFirst` of the arguments.
-/
import proofs.«127475_j56788057587918_2_alg».proof.Proof.Blocks
import proofs.«127475_j56788057587918_2_alg».proof.Proof.Spec

noncomputable section

namespace Cert.Attn.Relaid

open Cert.KernelIdeal Cert.KernelIdeal.Gen Idealize.ShloMosaic Idealize.ShloMosaic.ValueIdx
open Cert.Attn Cert.Attn.Blocks

/-- The merged index of batch entry `b` and head `h`. -/
abbrev pair (b : Fin 2) (h : Fin 8) : Fin 16 := ⟨b.val * 8 + h.val, by omega⟩

/-- An argument with its first two axes merged reads, at (8 * b + h, p, d), the argument at (b, h, p, d). -/
theorem merged_apply (x : Arr) (b : Fin 2) (h : Fin 8) (p : Fin 2048) (d : Fin 64) :
    shapeCast S16x2048x64 x Facts₀.shapeCasts_S2x8x2048x64_S16x2048x64 (ix3 (pair b h) p d) = x (ix4 b h p d) :=
  shapeCast_apply x _ _ _ (by
    rw [Shape.rowMajor_val_four, Shape.rowMajor_val_three]
    rfl)

/-- A merged array split back reads, at (b, h, p, e), the merged array at (8 * b + h, p, e). -/
theorem split_apply (y : FVec Ideal S16x2048x64 .f32) (i : S2x8x2048x64.Idx) :
    shapeCast S2x8x2048x64 y Facts₀.shapeCasts_S16x2048x64_S2x8x2048x64 i = y (ix3 (pair (i 0) (i 1)) (i 2) (i 3)) :=
  shapeCast_apply y _ _ _ (by
    rw [Shape.rowMajor_val_four, Shape.rowMajor_val_three]
    rfl)

/-- The per-pair function of the three merged arguments, split back, is `keysValuesFirst` of the arguments. -/
theorem split_perHead_merged (q k v : Arr) :
    shapeCast S2x8x2048x64
        (perHead (shapeCast S16x2048x64 q Facts₀.shapeCasts_S2x8x2048x64_S16x2048x64)
          (shapeCast S16x2048x64 k Facts₀.shapeCasts_S2x8x2048x64_S16x2048x64)
          (shapeCast S16x2048x64 v Facts₀.shapeCasts_S2x8x2048x64_S16x2048x64))
        Facts₀.shapeCasts_S16x2048x64_S2x8x2048x64
      = keysValuesFirst q k v := by
  funext i
  rw [split_apply]
  unfold perHead keysValuesFirst
  refine Finset.sum_congr rfl fun d _ => ?_
  refine congrArg₂ (· * ·) (merged_apply q (i 0) (i 1) (i 2) d) (Finset.sum_congr rfl fun l _ => ?_)
  exact congrArg₂ (· * ·) (merged_apply k (i 0) (i 1) l d) (merged_apply v (i 0) (i 1) l (i 3))

end Cert.Attn.Relaid

end
-- ==== Proof.KernelRun.lean ====
/-
  The kernel's run, with its result named.

  The region is entered with the three arguments re-laid (first two axes merged) in the arrays its windows stage, leaves its
  output array at the per-pair function of those three (the blocks cover it), and the one operation after the region splits
  the merged axis of that array back. So the result buffer ends at `keysValuesFirst` of the arguments as launched, and the
  arguments themselves are untouched.
-/
import proofs.«127475_j56788057587918_2_alg».proof.Proof.Relaid
import Idealize.ShloMosaic.Lib.StableHlo.Run

noncomputable section

namespace Cert.Attn.KernelRun

open Cert.KernelIdeal Cert.KernelIdeal.Gen
open Idealize.ShloMosaic Idealize.ShloMosaic.TcCoe Idealize.SL.Sem Idealize.ShloMosaic.StableHlo
open Idealize.ShloMosaic.Pipeline (Dat)
open Cert.Attn Cert.Attn.Blocks Cert.Attn.Relaid

variable (m : (ℓ : Loc nD τ sig) → Buf (Elt Ideal) ℓ) (ρ : Dev nD → PrngReg)

/-- Entering the region, the array the first window stages is the queries with the first two axes merged, -/
theorem entered_queries (c : Dev nD) :
    V m c main_v0 = shapeCast S16x2048x64 (m ((c : Thread nD τ).loc main_arg0)) Facts₀.shapeCasts_S2x8x2048x64_S16x2048x64 := by
  show StableHlo.after hostOps0 (fun b => m (c, b)) (Proc.devRef .tc main_v0) = _
  after_results
  rfl

/-- the second the keys, -/
theorem entered_keys (c : Dev nD) :
    V m c main_v1 = shapeCast S16x2048x64 (m ((c : Thread nD τ).loc main_arg1)) Facts₀.shapeCasts_S2x8x2048x64_S16x2048x64 := by
  show StableHlo.after hostOps0 (fun b => m (c, b)) (Proc.devRef .tc main_v1) = _
  after_results
  rfl

/-- the third the values. -/
theorem entered_values (c : Dev nD) :
    V m c main_v2 = shapeCast S16x2048x64 (m ((c : Thread nD τ).loc main_arg2)) Facts₀.shapeCasts_S2x8x2048x64_S16x2048x64 := by
  show StableHlo.after hostOps0 (fun b => m (c, b)) (Proc.devRef .tc main_v2) = _
  after_results
  rfl

/-- After the region and the operation that follows it, the result buffer is the output array with its merged axis split. -/
theorem tail_eq (c : Dev nD) :
    Pipeline.afterTail₀ cfgs (dats m) 0 (V0 m) [hostOps1] c main_v4
      = shapeCast S2x8x2048x64 ((dats m 0 c).arrAt 3 cfg0.N) Facts₀.shapeCasts_S16x2048x64_S2x8x2048x64 := by
  unfold Pipeline.afterTail₀
  show StableHlo.after hostOps1 _ (Proc.devRef .tc main_v4) = _
  after_results
  exact congrArg (fun y : FVec Ideal S16x2048x64 .f32 => shapeCast S2x8x2048x64 y Facts₀.shapeCasts_S16x2048x64_S2x8x2048x64)
    (Pipeline.withArrays_arr spec0 launch0.win.arr_inj c (V0 m c) (fun w => (dats m 0 c).arrAt w cfg0.N) 3)

/-- The result buffer after the run is `keysValuesFirst` of the arguments as launched. -/
theorem result_eq (c : Dev nD) :
    Pipeline.afterTail₀ cfgs (dats m) 0 (V0 m) [hostOps1] c main_v4
      = keysValuesFirst (m ((c : Thread nD τ).loc main_arg0)) (m ((c : Thread nD τ).loc main_arg1)) (m ((c : Thread nD τ).loc main_arg2)) := by
  rw [tail_eq, final, entered_queries, entered_keys, entered_values]
  exact split_perHead_merged _ _ _

/-- THE KERNEL'S RUN: every weakly fair execution terminates with the result at `keysValuesFirst` of the arguments and the
    arguments unchanged. -/
theorem run : θ_run defs (onTc (τ := τ) (main (F := Ideal))) ⟨m, fun _ => 0, ρ⟩ fun r => ∀ c : Dev nD,
      r.2.mem ((c.tc : Thread nD τ).loc main_v4)
        = keysValuesFirst (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.KernelRun

end
-- ==== Proof.lean ====
/-
  Attention without the softmax: a product of three matrices, multiplied in two orders.

  For each batch entry and head the reference multiplies the queries (2048 × 64) by the transposed keys (64 × 2048) and the
  2048 × 2048 result by the values (2048 × 64). The kernel multiplies the transposed keys by the values first, a 64 × 64
  matrix, and then the queries by that; it works on one (batch entry, head) pair per grid point, on arrays whose first two
  axes were merged before the region and are split again after it, and its changes of float format are the identity on
  the extended reals. Entry by entry the two results are the double sum of `q (p,d) * k (l,d) * v (l,e)` over the key
  position `l` and the feature `d`, grouped one way or the other. Multiplication distributes over sums of extended reals only
  away from the infinities, so the precondition — every entry of the three arguments a real number — is what makes the two
  groupings equal.

  The parts: the law on real entries (Proof/AssocLaw.lean); the two groupings as functions of the arguments and their
  equality (Proof/Spec.lean); the reference read at an index (Proof/RefValue.lean); the kernel body's stored value at an
  index (Proof/Body.lean); from one grid point's block to the whole output array (Proof/Blocks.lean); the merging and
  splitting of the first two axes (Proof/Relaid.lean); the kernel's run with its result named (Proof/KernelRun.lean); real
  entries out of the precondition (Proof/Finite.lean). The kernel is its own idealization: nothing was rewritten, and there
  is nothing to preserve.
-/
import proofs.«127475_j56788057587918_2_alg».proof.Defs
import proofs.«127475_j56788057587918_2_alg».proof.Proof.Gen.Kernel
import proofs.«127475_j56788057587918_2_alg».proof.Proof.Gen.Kernel.Skeleton
import proofs.«127475_j56788057587918_2_alg».proof.Proof.Gen.Kernel.Launch
import proofs.«127475_j56788057587918_2_alg».proof.Proof.Gen.Kernel.Points
import proofs.«127475_j56788057587918_2_alg».proof.Proof.Gen.Kernel.Frame
import proofs.«127475_j56788057587918_2_alg».proof.Proof.Gen.KernelIdeal
import proofs.«127475_j56788057587918_2_alg».proof.Proof.Gen.KernelIdeal.Skeleton
import proofs.«127475_j56788057587918_2_alg».proof.Proof.Gen.KernelIdeal.Launch
import proofs.«127475_j56788057587918_2_alg».proof.Proof.Gen.KernelIdeal.Points
import proofs.«127475_j56788057587918_2_alg».proof.Proof.Gen.KernelIdeal.Frame
import proofs.«127475_j56788057587918_2_alg».proof.Proof.Gen.ReferenceIdeal
import proofs.«127475_j56788057587918_2_alg».proof.Proof.Gen.ReferenceIdeal.Run
import proofs.«127475_j56788057587918_2_alg».proof.Proof.Gen.ReferenceIdeal.Read
import proofs.«127475_j56788057587918_2_alg».proof.Proof.Gen.Pre_finite_inputs
import proofs.«127475_j56788057587918_2_alg».proof.Proof.RefValue
import proofs.«127475_j56788057587918_2_alg».proof.Proof.Finite
import proofs.«127475_j56788057587918_2_alg».proof.Proof.KernelRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is two operations in a row: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On arguments that are real numbers throughout, the kernel's result — the queries against (transposed keys times values) —
    and the reference's — (queries times transposed keys) against the values — are the same array. -/
theorem algebraic : Cert.algebraic_KernelIdeal_ReferenceIdeal := by
  intro m ρ m' ρ' hpre hagree
  refine ⟨fun c => Cert.Attn.keysValuesFirst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.Attn.Finite.allReal_of_pre _ _ _ (hpre c)
  rw [(hagree c).1, (hagree c).2.1, (hagree c).2.2, Cert.ReferenceIdeal.Read.val_main_v1_eq,
    Cert.Attn.Reference.val_eq_scoresFirst]
  exact Cert.Attn.scoresFirst_eq_keysValuesFirst _ _ _ hq hk hv

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
